-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S512x2048 : Shape := ⟨2, ![512, 2048]⟩
abbrev S1x2048 : Shape := ⟨2, ![1, 2048]⟩
abbrev S2048x2048 : Shape := ⟨2, ![2048, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x512_S512x2048_S2048x2048_1_0_0_1_n_n_wf : DotDims.WF S2048x512 S512x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S4096x4096.size a
  hwx0_3 : ∀ i : grid0.Coords, EltTy.bits .f32 = 32 ∨ (Rect.block (s := S4096x4096) S2048x2048.size (cc0_transform_3 i) (hinb0_3 i)).WholeWords (EltTy.packing .f32)

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.Blocks.lean ====
/-
  The kernel's input blocks, read at an entry.

  The grid has 2 × 2 × 8 points, numbered row-major: point t has output block row t / 16, output block column
  (t / 8) % 2 and contraction step t % 8. At point t the input block is rows [2048·(t/16), +2048) and columns
  [512·(t%8), +512) of X; the weight block is rows [512·(t%8), +512) and columns [2048·((t/8)%2), +2048) of W; the
  offset block is columns [2048·((t/8)%2), +2048) of the offset vector laid out as a 1×4096 row. An entry of a block
  is therefore an entry of the argument array at block index × block extent + the place inside the block.
-/
import proofs.«136754_j27590869910151_2_alg».proof.Proof.Gen.KernelIdeal.Value
import proofs.«136754_j27590869910151_2_alg».proof.Proof.LibRowVector
import Idealize.ShloMosaic.Lib.Pipeline.Value
import Idealize.ShloMosaic.Lib.StableHlo.Run

noncomputable section

namespace Cert.BinDense

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The input block, the weight block and the offset block of point n, at their literal shapes. -/
def xblk (c : Dev nD) (n : ℕ) (h : n < cfg0.N) : Vec Ideal S2048x512 .f32 := iblk m c 0 ⟨n, h⟩
def wblk (c : Dev nD) (n : ℕ) (h : n < cfg0.N) : Vec Ideal S512x2048 .f32 := iblk m c 1 ⟨n, h⟩
def bblk (c : Dev nD) (n : ℕ) (h : n < cfg0.N) : Vec Ideal S1x2048 .f32 := iblk m c 2 ⟨n, h⟩

/-- The printed index maps over the grid: block row, block column and contraction step of point t. -/
theorem idx0 : ∀ t : Fin cfg0.N, win0_0.index t (0 : Fin 2) = t.val / 16 ∧ win0_0.index t (1 : Fin 2) = t.val % 8 :=
  (by decide +kernel : ∀ t : Fin grid0.N, _)
theorem idx1 : ∀ t : Fin cfg0.N, win0_1.index t (0 : Fin 2) = t.val % 8 ∧ win0_1.index t (1 : Fin 2) = t.val / 8 % 2 :=
  (by decide +kernel : ∀ t : Fin grid0.N, _)
theorem idx2 : ∀ t : Fin cfg0.N, win0_2.index t (0 : Fin 2) = 0 ∧ win0_2.index t (1 : Fin 2) = t.val / 8 % 2 :=
  (by decide +kernel : ∀ t : Fin grid0.N, _)

/-- The input block of point n at (p, e) is X at (2048·(n/16) + p, 512·(n%8) + e). -/
theorem xblk_apply (c : Dev nD) (n : ℕ) (h : n < cfg0.N) (p : Fin 2048) (e : Fin 512) (a k : Fin 4096)
    (ha : a.val = n / 16 * 2048 + p.val) (hk : k.val = n % 8 * 512 + e.val) :
    xblk m c n h (ix2 p e) = m ((c : Thread nD τ).loc main_arg0) (ix2 a k) := by
  have e0 : win0_0.index ⟨n, h⟩ (0 : Fin 2) = n / 16 := (idx0 ⟨n, h⟩).1
  have e1 : win0_0.index ⟨n, h⟩ (1 : Fin 2) = n % 8 := (idx0 ⟨n, h⟩).2
  show V m c main_arg0 (((cfg0.win 0).blk ⟨n, h⟩).view.emb (ix2 p e)) = _
  rw [V_main_arg0]
  refine congrArg _ (funext fun ax => Fin.ext ?_)
  match ax with
  | ⟨0, _⟩ => show win0_0.index ⟨n, h⟩ (0 : Fin 2) * 2048 + 1 * p.val = a.val; rw [e0]; omega
  | ⟨1, _⟩ => show win0_0.index ⟨n, h⟩ (1 : Fin 2) * 512 + 1 * e.val = k.val; rw [e1]; omega

/-- The weight block of point n at (e, q) is W at (512·(n%8) + e, 2048·((n/8)%2) + q). -/
theorem wblk_apply (c : Dev nD) (n : ℕ) (h : n < cfg0.N) (e : Fin 512) (q : Fin 2048) (k b : Fin 4096)
    (hk : k.val = n % 8 * 512 + e.val) (hb : b.val = n / 8 % 2 * 2048 + q.val) :
    wblk m c n h (ix2 e q) = m ((c : Thread nD τ).loc main_arg1) (ix2 k b) := by
  have e0 : win0_1.index ⟨n, h⟩ (0 : Fin 2) = n % 8 := (idx1 ⟨n, h⟩).1
  have e1 : win0_1.index ⟨n, h⟩ (1 : Fin 2) = n / 8 % 2 := (idx1 ⟨n, h⟩).2
  show V m c main_arg1 (((cfg0.win 1).blk ⟨n, h⟩).view.emb (ix2 e q)) = _
  rw [V_main_arg1]
  refine congrArg _ (funext fun ax => Fin.ext ?_)
  match ax with
  | ⟨0, _⟩ => show win0_1.index ⟨n, h⟩ (0 : Fin 2) * 512 + 1 * e.val = k.val; rw [e0]; omega
  | ⟨1, _⟩ => show win0_1.index ⟨n, h⟩ (1 : Fin 2) * 2048 + 1 * q.val = b.val; rw [e1]; omega

/-- The offset row as the region finds it: the offset vector laid out as a 1×4096 row. -/
theorem V_row (c : Dev nD) :
    (V m c main_v0 : S1x4096.Idx → EReal)
      = shapeCast S1x4096 (m ((c : Thread nD τ).loc main_arg2)) shapeCasts_S4096_S1x4096 := by
  dsimp only [Gen.V, Gen.hostOps0]
  after_results
  rfl

/-- The offset block of point n at (0, q) is the offset vector at 2048·((n/8)%2) + q. -/
theorem bblk_apply (c : Dev nD) (n : ℕ) (h : n < cfg0.N) (q : Fin 2048) (b : Fin 4096)
    (hb : b.val = n / 8 % 2 * 2048 + q.val) :
    bblk m c n h (ix2 0 q) = m ((c : Thread nD τ).loc main_arg2) (ix1 b) := by
  have e0 : win0_2.index ⟨n, h⟩ (0 : Fin 2) = 0 := (idx2 ⟨n, h⟩).1
  have e1 : win0_2.index ⟨n, h⟩ (1 : Fin 2) = n / 8 % 2 := (idx2 ⟨n, h⟩).2
  show V m c main_v0 (((cfg0.win 2).blk ⟨n, h⟩).view.emb (ix2 0 q)) = _
  rw [V_row]
  refine Eq.trans ?_ (Cert.RowVector.shapeCast_row (m ((c : Thread nD τ).loc main_arg2)) shapeCasts_S4096_S1x4096 b)
  refine congrArg _ (funext fun ax => Fin.ext ?_)
  match ax with
  | ⟨0, _⟩ => show win0_2.index ⟨n, h⟩ (0 : Fin 2) * 1 + 1 * 0 = 0; rw [e0]
  | ⟨1, _⟩ => show win0_2.index ⟨n, h⟩ (1 : Fin 2) * 2048 + 1 * q.val = b.val; rw [e1]; omega

end Cert.BinDense

end
-- ==== Proof.LibLits.lean ====
/-
  Four single-precision float literals as the extended reals their bit patterns denote: 0.0, 1.0, 2.0 and -1.0.
  Each pattern is a sign, an exponent and a zero mantissa, so its value is a signed power of two.
-/
import Idealize.ShloMosaic.PureOps.Ideal
import Idealize.ShloMosaic.PureOps.Ideal.Laws

noncomputable section

namespace Cert.Lits

open Idealize.ShloMosaic

/-- The pattern of `1.0` denotes the real one. -/
theorem one : Ideal.ofBits .f32 0x3F800000#32 = ((1 : ℝ) : EReal) := by
  simp [Ideal.ofBits, Ideal.ieee, -EReal.coe_mul]; norm_num

/-- The pattern of `2.0` denotes the real two. -/
theorem two : Ideal.ofBits .f32 0x40000000#32 = ((2 : ℝ) : EReal) := by
  simp [Ideal.ofBits, Ideal.ieee, -EReal.coe_mul]; norm_num

/-- The pattern of `-1.0` denotes the real minus one. -/
theorem negOne : Ideal.ofBits .f32 0xBF800000#32 = ((-1 : ℝ) : EReal) := by
  simp [Ideal.ofBits, Ideal.ieee, -EReal.coe_mul]; norm_num

/-- The zero pattern denotes zero. -/
theorem zero : Ideal.ofBits .f32 0x00000000#32 = ((0 : ℝ) : EReal) := by
  rw [Ideal.ofBits_zero_f32]; rfl

end Cert.Lits

end
-- ==== Proof.Spec.lean ====
/-
  A dense layer with sign-binarised weights, as one function of its three argument arrays.

  For a 4096×4096 input X, a 4096×4096 weight W and a length-4096 offset B, entry (a, b) of the result is

      max ( (∑ c, X(a, c) · sg (W(c, b))) + B(b), 0 ),

  where sg w is +1 when 0 ≤ w and −1 otherwise. The sign is spelt as a comparison with the zero word selecting
  between the words of 1.0 and −1.0, so that a program which spells it the same way meets it without any word
  being evaluated; the two facts used about it are that it is a real number (it is one of two reals) and hence that
  w + (sg w − w) = sg w for every real w.
-/
import Idealize.ShloMosaic.PureOps.Ideal
import Idealize.ShloMosaic.PureOps.Ideal.Laws
import Idealize.ShloMosaic.Lib.ValueIdx
import proofs.«136754_j27590869910151_2_alg».proof.Proof.LibLits

noncomputable section

open scoped BigOperators

namespace Cert.BinDense

open Idealize.ShloMosaic Idealize.ShloMosaic.ValueIdx

/-- The binarised weight: the word of 1.0 where the weight compares at or above the zero word, else the word of −1.0. -/
def sg (w : EReal) : EReal :=
  Scalar.select (FloatOps.cmpf (F := Ideal) (φ := .f32) .oge w (FloatOps.ofBits (F := Ideal) .f32 0x00000000#32))
    (FloatOps.ofBits (F := Ideal) .f32 0x3F800000#32) (FloatOps.ofBits (F := Ideal) .f32 0xBF800000#32)

/-- The binarised weight is a real number: 1 or −1. -/
theorem sg_real (w : EReal) : ∃ s : ℝ, sg w = (s : EReal) := by
  unfold sg Scalar.select
  split
  · exact ⟨1, Cert.Lits.one⟩
  · exact ⟨-1, Cert.Lits.negOne⟩

/-- For a real weight the straight-through form w + (sg w − w) is sg w: the real w cancels. -/
theorem ste_real (r : ℝ) : ((r : ℝ) : EReal) + (sg (r : EReal) - (r : EReal)) = sg (r : EReal) := by
  obtain ⟨s, hs⟩ := sg_real (r : EReal)
  rw [hs, ← EReal.coe_sub, ← EReal.coe_add]
  congr 1
  ring

/-- The layer: entry (a, b) is max((∑ c, X(a, c) · sg(W(c, b))) + B(b), 0). -/
def dense (X W : (⟨2, ![4096, 4096]⟩ : Shape).Idx → EReal) (B : (⟨1, ![4096]⟩ : Shape).Idx → EReal) :
    (⟨2, ![4096, 4096]⟩ : Shape).Idx → EReal := fun i =>
  max ((∑ c : Fin 4096, X (ix2 (i 0) c) * sg (W (ix2 c (i 1)))) + B (ix1 (i 1)))
    (FloatOps.ofBits (F := Ideal) .f32 0x00000000#32)

theorem dense_apply (X W : (⟨2, ![4096, 4096]⟩ : Shape).Idx → EReal) (B : (⟨1, ![4096]⟩ : Shape).Idx → EReal)
    (a b : Fin 4096) :
    dense X W B (ix2 a b) = max ((∑ c : Fin 4096, X (ix2 a c) * sg (W (ix2 c b))) + B (ix1 b))
      (FloatOps.ofBits (F := Ideal) .f32 0x00000000#32) := rfl

end Cert.BinDense

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Payloads.lean ====
/-
  The three values the kernel body stores into its resident output block, each read at one entry (p, q) of the
  2048×2048 block, at the ideal values:

  * the reset value is the zero word everywhere;
  * the accumulation step adds to the block's previous entry the sum over the 512 contraction positions e of
    x(p, e) · sg(w(e, q)), x the point's 2048×512 input block and w its 512×2048 weight block (the two changes of
    float format are the identity, the matrix unit's product into a zero accumulator is the plain sum);
  * the closing step adds the offset row's entry (0, q) and clamps at the zero word.
-/
import proofs.«136754_j27590869910151_2_alg».proof.Proof.Gen.KernelIdeal.Skeleton
import proofs.«136754_j27590869910151_2_alg».proof.Proof.Spec
import proofs.«136754_j27590869910151_2_alg».proof.Proof.LibPlainDot
import proofs.«136754_j27590869910151_2_alg».proof.Proof.LibRowVector
import Idealize.ShloMosaic.Lib.Pipeline.Value

noncomputable section

open scoped BigOperators

namespace Cert.BinDense

open Idealize.ShloMosaic Idealize.ShloMosaic.ValueIdx Cert.KernelIdeal Cert.KernelIdeal.Gen

/-- The reset value at any entry: the zero word. -/
theorem pay1_apply (j : S2048x2048.Idx) :
    k0_pay1 (F := Ideal) j = FloatOps.ofBits (F := Ideal) .f32 0x00000000#32 := rfl

/-- The accumulation step at entry (p, q): the previous entry plus the block's contraction against the binarised
    weight block. -/
theorem pay2_apply (w : Vec Ideal S512x2048 .f32) (x : Vec Ideal S2048x512 .f32) (acc : Vec Ideal S2048x2048 .f32)
    (p q : Fin 2048) :
    k0_pay2 (F := Ideal) w x acc (ix2 p q) = acc (ix2 p q) + ∑ e : Fin 512, x (ix2 p e) * sg (w (ix2 e q)) := by
  unfold k0_pay2
  refine (addf_apply _ _ _).trans ?_
  refine congrArg₂ (· + ·) (congrFun (shapeCast_self acc _) _) ?_
  refine (Cert.PlainDot.matmul_zero_apply _ rfl none _ _ p q).trans ?_
  rfl

/-- The closing step at entry (p, q): the accumulated entry plus the offset row at (0, q), clamped at the zero word. -/
theorem pay3_apply (acc : Vec Ideal S2048x2048 .f32) (b : Vec Ideal S1x2048 .f32) (p q : Fin 2048) :
    k0_pay3 (F := Ideal) acc b (ix2 p q)
      = max (acc (ix2 p q) + b (ix2 0 q)) (FloatOps.ofBits (F := Ideal) .f32 0x00000000#32) := by
  unfold k0_pay3
  refine (maximumf_apply _ _ _).trans ?_
  refine congrArg₂ max ?_ rfl
  refine (addf_apply _ _ _).trans ?_
  refine congrArg₂ (· + ·) (congrFun (shapeCast_self acc _) _) ?_
  refine (Cert.RowVector.broadcastTo_row (by decide) _ _ p q).trans ?_
  exact congrFun (shapeCast_self b _) _

end Cert.BinDense

end
-- ==== Proof.LibTileSum.lean ====
/-
  A sum over a·b positions taken tile by tile, and a running total started from a constant.

  In any commutative additive monoid — the extended reals among them, where nothing is cancelled and so nothing
  has to be finite — a sum over the positions 0 … a·b − 1 is the sum over the a tiles of b consecutive positions
  of each tile's own sum; and a total that starts at a constant z and then receives the tile sums one after the
  other, ((z + s₀) + s₁) + …, is the whole sum plus z. Together: accumulating a contraction block by block from a
  constant gives the one long contraction plus that constant.
-/
import Mathlib.Algebra.BigOperators.Fin
import Mathlib.Logic.Equiv.Fin.Basic

open scoped BigOperators

namespace Cert.TileSum

variable {M : Type*} [AddCommMonoid M]

/-- A sum over `n = a·b` positions is the sum over the `a` tiles of the sum over the `b` positions of the tile,
    for any naming `pos k e` of position `k·b + e`. -/
theorem sum_tiles {n a b : ℕ} (hn : n = a * b) (f : Fin n → M) (pos : Fin a → Fin b → Fin n)
    (hpos : ∀ k e, (pos k e).val = k.val * b + e.val) :
    ∑ c : Fin n, f c = ∑ k : Fin a, ∑ e : Fin b, f (pos k e) := by
  subst hn
  rw [← Equiv.sum_comp finProdFinEquiv f, Fintype.sum_prod_type]
  refine Finset.sum_congr rfl fun k _ => Finset.sum_congr rfl fun e _ => congrArg f (Fin.ext ?_)
  rw [hpos]
  show e.val + b * k.val = k.val * b + e.val
  rw [Nat.mul_comm, Nat.add_comm]

/-- The same with the tiles counted by a natural number below `a`, as a running total counts them: `g k` is
    tile `k`'s sum for every `k < a`. -/
theorem sum_tiles_range {n a b : ℕ} (hn : n = a * b) (f : Fin n → M) (pos : Fin a → Fin b → Fin n)
    (hpos : ∀ k e, (pos k e).val = k.val * b + e.val) (g : ℕ → M)
    (hg : ∀ k : Fin a, g k.val = ∑ e : Fin b, f (pos k e)) :
    ∑ k ∈ Finset.range a, g k = ∑ c : Fin n, f c := by
  rw [sum_tiles hn f pos hpos, Finset.sum_range]
  exact Finset.sum_congr rfl fun k _ => hg k

/-- A total started at `z` that has received the tiles' sums is the whole sum plus `z`. -/
theorem start_add_tiles {n a b : ℕ} (hn : n = a * b) (f : Fin n → M) (pos : Fin a → Fin b → Fin n)
    (hpos : ∀ k e, (pos k e).val = k.val * b + e.val) (g : ℕ → M)
    (hg : ∀ k : Fin a, g k.val = ∑ e : Fin b, f (pos k e)) (z : M) :
    z + ∑ k ∈ Finset.range a, g k = (∑ c : Fin n, f c) + z := by
  rw [sum_tiles_range hn f pos hpos g hg, add_comm]

end Cert.TileSum
-- ==== Proof.Kernel.lean ====
/-
  What the kernel leaves in its output array: the dense layer of its three arguments.

  An output block (block row I, block column J) is resident over the run of eight consecutive grid points
  8·r, …, 8·r + 7, r = 2·I + J. The first point resets the block to zero and adds its contraction; each of the next six
  adds its own; the last adds its own, then adds the offset row and clamps at zero. Each point's contraction is over
  the 512 positions of its tile, so at entry (p, q) of the block the eight addends are the eight tiles of the one
  sum over all 4096 positions — a regrouping of a sum in a commutative monoid, which asks nothing of the summands —
  and the zero the run starts from is the additive unit.
-/
import proofs.«136754_j27590869910151_2_alg».proof.Proof.Blocks
import proofs.«136754_j27590869910151_2_alg».proof.Proof.Payloads
import proofs.«136754_j27590869910151_2_alg».proof.Proof.LibTileSum
import proofs.«136754_j27590869910151_2_alg».proof.Proof.LibLits

noncomputable section

open scoped BigOperators

namespace Cert.BinDense

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

local notation "z0" => (FloatOps.ofBits (F := Ideal) FTy.f32 0x00000000#32)

/-- The reset at point n: the accumulation step over the zero block. -/
theorem reset3_eq (c : Dev nD) (n : ℕ) (h : n < cfg0.N) :
    Cert.KernelIdeal.Value.reset3 m c n h = k0_pay2 (wblk m c n h) (xblk m c n h) (k0_pay1 (F := Ideal)) := rfl

/-- The step at a point that is neither first nor last of its run: the accumulation step. -/
theorem step3_mid (c : Dev nD) (n : ℕ) (h : n < cfg0.N) (h0 : ¬n % 8 = 0) (h7 : ¬n % 8 = 7)
    (acc : Vec Ideal S2048x2048 .f32) :
    Cert.KernelIdeal.Value.step3 m c n h acc = k0_pay2 (wblk m c n h) (xblk m c n h) acc := by
  unfold Cert.KernelIdeal.Value.step3
  rw [if_pos ⟨h0, h7⟩]
  rfl

/-- The step at the last point of a run: the accumulation step, then the closing step with the point's offset block. -/
theorem step3_last (c : Dev nD) (n : ℕ) (h : n < cfg0.N) (h7 : n % 8 = 7) (acc : Vec Ideal S2048x2048 .f32) :
    Cert.KernelIdeal.Value.step3 m c n h acc
      = k0_pay3 (k0_pay2 (wblk m c n h) (xblk m c n h) acc) (bblk m c n h) := by
  unfold Cert.KernelIdeal.Value.step3
  rw [if_neg (by omega), if_pos (by omega)]
  rfl

/-- Point n's addend at block entry j: its input block's row against its binarised weight block's column (zero for a
    number past the grid, which is never a point). -/
def addend (c : Dev nD) (n : ℕ) (j : S2048x2048.Idx) : EReal :=
  if h : n < cfg0.N then ∑ e : Fin 512, xblk m c n h (ix2 (j 0) e) * sg (wblk m c n h (ix2 e (j 1))) else 0

theorem addend_apply (c : Dev nD) (n : ℕ) (h : n < cfg0.N) (p q : Fin 2048) :
    addend m c n (ix2 p q) = ∑ e : Fin 512, xblk m c n h (ix2 p e) * sg (wblk m c n h (ix2 e q)) := by
  unfold addend
  rw [dif_pos h]

/-- The block after the whole run 8·r … 8·r + 7, at entry (p, q): zero plus the eight addends, plus the offset, clamped. -/
theorem fold_apply (c : Dev nD) (r : ℕ) (hr : 8 * r + 7 < cfg0.N) (p q : Fin 2048) :
    Pipeline.accAt (Cert.KernelIdeal.Value.reset3 m c) (Cert.KernelIdeal.Value.step3 m c) (8 * r) 7 hr (ix2 p q)
      = max ((z0 + ∑ s ∈ Finset.range 8, addend m c (8 * r + s) (ix2 p q)) + bblk m c (8 * r + 7) hr (ix2 0 q)) z0 := by
  have ha : ∀ (h : 8 * r < cfg0.N) (j : S2048x2048.Idx),
      Cert.KernelIdeal.Value.reset3 m c (8 * r) h j = (fun _ => z0) j + addend m c (8 * r) j := by
    intro h j
    obtain ⟨p', q', rfl⟩ : ∃ (p' q' : Fin 2048), j = ix2 p' q' := ⟨j 0, j 1, eq_ix2 j⟩
    rw [reset3_eq, addend_apply m c _ h]
    exact pay2_apply (wblk m c (8 * r) h) (xblk m c (8 * r) h) (k0_pay1 (F := Ideal)) p' q'
  have hg : ∀ (n : ℕ) (h : n < cfg0.N) (acc : S2048x2048.Idx → EReal) (j : S2048x2048.Idx), 8 * r < n → n ≤ 8 * r + 6 →
      Cert.KernelIdeal.Value.step3 m c n h acc j = acc j + addend m c n j := by
    intro n h acc j h1 h2
    obtain ⟨p', q', rfl⟩ : ∃ (p' q' : Fin 2048), j = ix2 p' q' := ⟨j 0, j 1, eq_ix2 j⟩
    rw [step3_mid m c n h (by omega) (by omega), addend_apply m c _ h]
    exact pay2_apply (wblk m c n h) (xblk m c n h) acc p' q'
  have h6 := Pipeline.accAt_add_apply (ι := S2048x2048.Idx) (β := EReal) (Cert.KernelIdeal.Value.reset3 m c)
    (Cert.KernelIdeal.Value.step3 m c) (fun _ => z0) (addend m c) (8 * r) 6 ha hg 6 le_rfl (Nat.lt_of_succ_lt hr) (ix2 p q)
  rw [Pipeline.accAt_succ, step3_last m c _ hr (by omega)]
  refine (pay3_apply _ (bblk m c (8 * r + (6 + 1)) hr) p q).trans ?_
  refine congrArg₂ max (congrArg₂ (· + ·) ?_ rfl) rfl
  refine (pay2_apply (wblk m c (8 * r + (6 + 1)) hr) (xblk m c (8 * r + (6 + 1)) hr) _ p q).trans ?_
  rw [h6, Finset.sum_range_succ _ 7, add_assoc, addend_apply m c (8 * r + 7) hr]

/-- THE OUTPUT ARRAY after the run is the dense layer of the three arguments. -/
theorem G3_eq (c : Dev nD) :
    Cert.KernelIdeal.Value.G3 m c
      = dense (m ((c : Thread nD τ).loc main_arg0)) (m ((c : Thread nD τ).loc main_arg1))
          (m ((c : Thread nD τ).loc main_arg2)) := by
  funext i
  obtain ⟨a, b, rfl⟩ : ∃ (a b : Fin 4096), i = ix2 a b := ⟨i 0, i 1, eq_ix2 i⟩
  have ha : a.val < 4096 := a.isLt
  have hb : b.val < 4096 := b.isLt
  have hN : cfg0.N = 32 := N_0
  have hr : 8 * (2 * (a.val / 2048) + b.val / 2048) + 7 < cfg0.N := by omega
  have hrun : Cert.KernelIdeal.Value.run3Of (ix2 a b) = 2 * (a.val / 2048) + b.val / 2048 := by
    show 2 * (a.val / 2048 - 0) + 1 * (b.val / 2048 - 0) = _
    omega
  have hloc : Cert.KernelIdeal.Value.loc3Of (ix2 a b)
      = ix2 (⟨a.val % 2048, Nat.mod_lt _ (by decide)⟩ : Fin 2048) (⟨b.val % 2048, Nat.mod_lt _ (by decide)⟩ : Fin 2048) :=
    funext fun ax => match ax with
      | ⟨0, _⟩ => rfl
      | ⟨1, _⟩ => rfl
  have e : ∀ (b1 b2 : ℕ) (h1 : b1 + 7 < cfg0.N) (h2 : b2 + 7 < cfg0.N), b1 = b2 →
      Pipeline.accAt (Cert.KernelIdeal.Value.reset3 m c) (Cert.KernelIdeal.Value.step3 m c) b1 7 h1
        = Pipeline.accAt (Cert.KernelIdeal.Value.reset3 m c) (Cert.KernelIdeal.Value.step3 m c) b2 7 h2 := by
    intro b1 b2 h1 h2 hb; subst hb; rfl
  unfold Cert.KernelIdeal.Value.G3
  rw [dif_pos (by rw [hrun]; exact hr), hloc]
  refine (congrFun (e _ (8 * (2 * (a.val / 2048) + b.val / 2048)) _ hr (by rw [hrun])) _).trans ?_
  refine (fold_apply m c _ hr _ _).trans ?_
  rw [dense_apply]
  refine congrArg₂ max (congrArg₂ (· + ·) ?_ (bblk_apply m c _ hr _ b (by show b.val = _ + b.val % 2048; omega))) rfl
  rw [show z0 = (0 : EReal) from Ideal.ofBits_zero_f32, zero_add]
  refine Cert.TileSum.sum_tiles_range (M := EReal) (n := 4096) (a := 8) (b := 512) rfl _
    (fun s e => (⟨s.val * 512 + e.val, by have := s.isLt; have := e.isLt; omega⟩ : Fin 4096)) (fun _ _ => rfl) _ (fun s => ?_)
  have hs : s.val < 8 := s.isLt
  beta_reduce
  rw [addend_apply m c _ (by omega)]
  refine Finset.sum_congr rfl fun e _ => ?_
  have he : e.val < 512 := e.isLt
  rw [xblk_apply m c _ (by omega) _ e a ⟨s.val * 512 + e.val, by omega⟩
      (by show a.val = _ + a.val % 2048; omega) (by show s.val * 512 + e.val = _; omega),
    wblk_apply m c _ (by omega) e _ ⟨s.val * 512 + e.val, by omega⟩ b
      (by show s.val * 512 + e.val = _; omega) (by show b.val = _ + b.val % 2048; omega)]

end Cert.BinDense

end
-- ==== Proof.Reference.lean ====
/-
  The reference's result, read at an entry, is the dense layer of its three arguments when the weights are real.

  The reference binarises the weight in the straight-through form W + (s − W), s the sign word selected by comparing W
  with a splat of zero; contracts X against that; adds the offset vector, spread first to a 1×4096 row and then over
  all rows; and clamps at a splat of zero. A scalar spread to every index is that scalar, the offset spread over the
  rows is the offset at the column, the contraction is the plain sum over the 4096 positions, and for a real weight
  entry w the real w cancels from w + (s − w), s being one of two reals.
-/
import proofs.«136754_j27590869910151_2_alg».proof.Proof.Gen.ReferenceIdeal
import proofs.«136754_j27590869910151_2_alg».proof.Proof.Spec
import proofs.«136754_j27590869910151_2_alg».proof.Proof.LibPlainDot
import Idealize.ShloMosaic.Lib.Pipeline.Value

noncomputable section

open scoped BigOperators

namespace Cert.BinDense

open Idealize.ShloMosaic Idealize.ShloMosaic.ValueIdx Cert.ReferenceIdeal Cert.ReferenceIdeal.Gen

/-- A scalar word spread to every index of the 4096×4096 shape: the word's value. -/
theorem splat_apply (w : BitVec 32) (i : S4096x4096.Idx) :
    broadcastInDim S4096x4096 ![] bcast_S_S4096x4096 (constant (F := Ideal) S_ .f32 w) i
      = FloatOps.ofBits (F := Ideal) .f32 w :=
  broadcastInDim_apply _ _ (constant (F := Ideal) S_ .f32 w) i ix0 (fun a => a.elim0)

/-- The offset vector laid out as a 1×4096 row and copied to every row, at (a, b): the offset at b. -/
theorem bias_apply (B : FVec Ideal S4096 .f32) (a b : Fin 4096) :
    broadcastInDim S4096x4096 ![0, 1] bcast_S1x4096_S4096x4096_0_1
        (broadcastInDim S1x4096 ![1] bcast_S4096_S1x4096_1 B) (ix2 a b) = B (ix1 b) := by
  refine (broadcastInDim_apply _ _ _ (ix2 a b) (ix2 0 b) (fun ax => ?_)).trans ?_
  · match ax with
    | ⟨0, _⟩ =>
      show (0 : Nat) = if (1 : Nat) = 1 then 0 else _
      rw [if_pos rfl]
    | ⟨1, _⟩ =>
      show b.val = if (4096 : Nat) = 1 then 0 else b.val
      rw [if_neg (by decide)]
  · refine broadcastInDim_apply _ _ B (ix2 0 b) (ix1 b) (fun ax => ?_)
    match ax with
    | ⟨0, _⟩ =>
      show b.val = if (4096 : Nat) = 1 then 0 else b.val
      rw [if_neg (by decide)]

/-- The reference's term is the dense layer, for weights that are real numbers. -/
theorem ref_eq (X W : FVec Ideal S4096x4096 .f32) (B : FVec Ideal S4096 .f32) (f : S4096x4096.Idx → ℝ)
    (hW : W = fun i => ((f i : ℝ) : EReal)) :
    maximumf (addf (Host.dotGeneral dot_S4096x4096_S4096x4096_S4096x4096_1_0_0_1_n_n none X
        (addf W (subf (id (select (cmpf .oge W (broadcastInDim S4096x4096 ![] bcast_S_S4096x4096 (constant S_ .f32 0x00000000#32)))
          (broadcastInDim S4096x4096 ![] bcast_S_S4096x4096 (constant S_ .f32 0x3F800000#32))
          (broadcastInDim S4096x4096 ![] bcast_S_S4096x4096 (constant S_ .f32 0xBF800000#32)))) W)))
        (broadcastInDim S4096x4096 ![0, 1] bcast_S1x4096_S4096x4096_0_1 (broadcastInDim S1x4096 ![1] bcast_S4096_S1x4096_1 B)))
      (broadcastInDim S4096x4096 ![] bcast_S_S4096x4096 (constant S_ .f32 0x00000000#32))
    = dense X W B := by
  have hsel : select (cmpf .oge W (broadcastInDim S4096x4096 ![] bcast_S_S4096x4096 (constant S_ .f32 0x00000000#32)))
        (broadcastInDim S4096x4096 ![] bcast_S_S4096x4096 (constant (F := Ideal) S_ .f32 0x3F800000#32))
        (broadcastInDim S4096x4096 ![] bcast_S_S4096x4096 (constant (F := Ideal) S_ .f32 0xBF800000#32))
      = fun i => sg (W i) := by
    funext i
    refine (select_apply _ _ _ i).trans ?_
    unfold sg
    rw [cmpf_apply, splat_apply, splat_apply, splat_apply]
  funext i
  obtain ⟨a, b, rfl⟩ : ∃ (a b : Fin 4096), i = ix2 a b := ⟨i 0, i 1, eq_ix2 i⟩
  rw [dense_apply, hsel]
  refine (maximumf_apply _ _ _).trans ?_
  refine congrArg₂ max ?_ (splat_apply _ _)
  refine (addf_apply _ _ _).trans ?_
  refine congrArg₂ (· + ·) ?_ (bias_apply B a b)
  refine (Cert.PlainDot.dotGeneral_apply _ rfl none .single X _ a b).trans ?_
  refine Finset.sum_congr rfl fun k _ => congrArg (X (ix2 a k) * ·) ?_
  show W (ix2 k b) + (sg (W (ix2 k b)) - W (ix2 k b)) = sg (W (ix2 k b))
  rw [show W (ix2 k b) = ((f (ix2 k b) : ℝ) : EReal) from congrFun hW _]
  exact ste_real _

end Cert.BinDense

end
-- ==== Proof.LibFiniteArrays.lean ====
/-
  Arrays all of whose entries are finite.  A program states "every entry of `x` is finite" as: the absolute
  value of every entry is below plus infinity, all these comparisons reduced by "and" into one bit that is 1.
  On the extended reals, `|x| < +∞` excludes both infinities, so such an array is the entrywise coercion of an
  array of real numbers.
-/
import Idealize.ShloMosaic.Lib.ReduceAll
import Idealize.ShloMosaic.Lib.ValueIdx
import Idealize.ShloMosaic.PureOps.Ideal

noncomputable section

namespace Cert.FiniteArrays

open Idealize.ShloMosaic

/-- The scalar shape has one index. -/
instance : Subsingleton (⟨0, ![]⟩ : Shape).Idx := ⟨fun a b => funext fun d => d.elim0⟩

/-- The pattern of plus infinity denotes the top of the extended reals. -/
theorem pos_inf : Ideal.ofBits .f32 0x7F800000#32 = (⊤ : EReal) := by
  simp [Ideal.ofBits, Ideal.ieee]

/-- An extended real whose absolute value compares below plus infinity is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (⊤ : EReal) = 1#1 := by rw [← pos_inf]; exact h
  induction x using EReal.rec with
  | bot => simp [Ideal.cmp] at h'
  | coe r => exact ⟨r, rfl⟩
  | top => simp [Ideal.cmp] at h'

/-- An array whose finiteness test — every `|x i| < +∞`, reduced by "and" from 1 into one bit — answers 1 is the
    entrywise coercion of a real array. -/
theorem exists_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr hu ValueIdx.ix0 = 1#1) :
    ∃ f : s.Idx → ℝ, x = fun i => ((f i : ℝ) : EReal) := by
  have h : ∀ i, ∃ r : ℝ, x i = (r : EReal) := fun i =>
    real_of_abs_lt_top (x i) (Host.reduce_andi_all _ _ hr hu _ e i)
  choose f hf using h
  exact ⟨f, funext hf⟩

end Cert.FiniteArrays

end
-- ==== Proof.Finite.lean ====
/-
  The precondition makes the weights real numbers.

  The precondition is one bit: for each of the three arguments, "every entry's absolute value is below plus
  infinity" reduced by "and" over the array, and the three bits joined by "and". When the bit is 1 each conjunct is 1,
  and an array whose finiteness bit is 1 is the entrywise coercion of an array of reals. Only the weights' conjunct is
  needed: the input and the offset may be any extended reals.
-/
import proofs.«136754_j27590869910151_2_alg».proof.Proof.Gen.Pre_finite_inputs
import proofs.«136754_j27590869910151_2_alg».proof.Proof.LibFiniteArrays
import Idealize.ShloMosaic.Lib.Affine

noncomputable section

namespace Cert.BinDense

open Idealize.ShloMosaic Cert.Pre_finite_inputs Cert.Pre_finite_inputs.Gen

/-- If the finiteness bit of (X, W, B) is 1 then W is the entrywise coercion of a real array. -/
theorem weights_real (X W : FVec Ideal S4096x4096 .f32) (B : FVec Ideal S4096 .f32)
    (h : Cert.Pre_finite_inputs.fn (F := Ideal) X W B = fun _ => 1#1) :
    ∃ f : S4096x4096.Idx → ℝ, W = fun i => ((f i : ℝ) : EReal) := by
  have h0 := congrFun h ValueIdx.ix0
  dsimp only [Cert.Pre_finite_inputs.fn] at h0
  have h1 := (IntOp.andi_eq_one.mp h0).1
  have h2 := (IntOp.andi_eq_one.mp h1).2
  exact Cert.FiniteArrays.exists_real W bcast_S_S4096x4096 reducesTo_S4096x4096_S_d0_1 h_S_ h2

end Cert.BinDense

end
-- ==== Proof.lean ====
/-
  A dense layer with sign-binarised weights: relu(x · sg(W) + b) for a 4096×4096 input x, a 4096×4096 weight W and a
  length-4096 offset b, where sg(w) is +1 for w ≥ 0 and −1 otherwise.

  The kernel tiles the output into four 2048×2048 blocks and the contraction into eight tiles of 512. An output
  block stays resident over the eight consecutive grid points of its contraction: the first point zeroes it, every
  point adds its tile's product of the input block with the binarised weight block (formed in the kernel, the two
  changes of float format being the identity on the extended reals), and the last point adds the offset row and
  clamps at zero. At an entry the eight tile sums are a regrouping of the one sum over all 4096 positions, which holds
  in any commutative monoid, so the kernel's array is the layer for ANY extended-real arguments (Proof/Kernel.lean,
  over the payloads of Proof/Payloads.lean and the block reads of Proof/Blocks.lean).

  The reference binarises in the straight-through form W + (sg(W) − W), contracts once over all 4096 positions, adds
  the offset and clamps. W + (sg(W) − W) is sg(W) exactly when the entry of W cancels, which it does for a real entry
  and does not for an infinite one (+∞ − ∞ is −∞ on the extended reals): here, and only here, the precondition is
  used — every weight is finite (Proof/Finite.lean), so the reference's array is the same layer
  (Proof/Reference.lean). The layer itself is stated once, in Proof/Spec.lean.

  The ideal pass rewrote nothing in the kernel, so the idealization claim has no conjunct. The three frame claims are
  the programs' runs with the result forgotten.
-/
import proofs.«136754_j27590869910151_2_alg».proof.Defs
import proofs.«136754_j27590869910151_2_alg».proof.Proof.Gen.Kernel.Frame
import proofs.«136754_j27590869910151_2_alg».proof.Proof.Gen.KernelIdeal.Value
import proofs.«136754_j27590869910151_2_alg».proof.Proof.Gen.Pre_finite_inputs
import proofs.«136754_j27590869910151_2_alg».proof.Proof.Gen.ReferenceIdeal.Run
import proofs.«136754_j27590869910151_2_alg».proof.Proof.Kernel
import proofs.«136754_j27590869910151_2_alg».proof.Proof.Reference
import proofs.«136754_j27590869910151_2_alg».proof.Proof.Finite
import Idealize.ShloMosaic.Adequacy
import Idealize.ShloMosaic.Init

noncomputable section

namespace Cert.Proof

open Idealize.ShloMosaic Idealize.SL.Sem

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both programs end with the same array: the kernel's is the dense layer of
    the arguments whatever they are, the reference's is that layer because the precondition makes the weights real. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.BinDense.G3_eq m c]
  obtain ⟨f, hf⟩ := Cert.BinDense.weights_real _ _ _ (hpre c)
  exact Cert.BinDense.ref_eq _ _ _ f hf

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
